-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S8x64 : Shape := ⟨2, ![8, 64]⟩
abbrev S1x8 : Shape := ⟨2, ![1, 8]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S8x64 : S_.BroadcastsInDim S8x64 (![] : Fin 0 → Fin S8x64.rank)
  reducesTo_S8x64_S_d0_1 : S8x64.ReducesTo [0, 1] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg4 : FVec F S200000x256 .f32) (main_v13 : IVec S_ 1) (main_v16 : IVec S200000x256 1) : IVec S_ 1 :=
  let main_c_5 : IVec S_ 1 := constantI S_ 1 1#1
  let main_v17 : IVec S_ 1 := (fun x v => Host.reduce IntOp.andi x v reducesTo_S200000x256_S_d0_1 h_S_) main_v16 main_c_5
  let main_v18 : IVec S_ 1 := andi main_v13 main_v17
  let main_v19 : FVec F S200000x256 .f32 := Host.absf main_arg4
  let main_cst_6 : FVec F S_ .f32 := constant S_ .f32 0x7F800000#32
  let main_v20 : FVec F S200000x256 .f32 := broadcastInDim S200000x256 ![] bcast_S_S200000x256 main_cst_6
  let main_v21 : IVec S200000x256 1 := cmpf .olt main_v19 main_v20
  let main_c_7 : IVec S_ 1 := constantI S_ 1 1#1
  let main_v22 : IVec S_ 1 := (fun x v => Host.reduce IntOp.andi x v reducesTo_S200000x256_S_d0_1 h_S_) main_v21 main_c_7
  let main_v23 : IVec S_ 1 := andi main_v18 main_v22
  main_v23

def fn {F : FTy → Type} [FloatOps F] (main_arg0 : FVec F S200000x256 .f32) (main_arg1 : FVec F S8x64 .f32) (main_arg2 : FVec F S1x8 .f32) (main_arg3 : FVec F S200000x256 .f32) (main_arg4 : FVec F S200000x256 .f32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S8x64 .f32 := Host.absf main_arg1
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  let main_v9 : FVec F S1x8 .f32 := Host.absf main_arg2
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  let main_v14 : FVec F S200000x256 .f32 := Host.absf main_arg3
  let main_cst_4 : FVec F S_ .f32 := constant S_ .f32 0x7F800000#32
  let main_v15 : FVec F S200000x256 .f32 := broadcastInDim S200000x256 ![] bcast_S_S200000x256 main_cst_4
  let main_v16 : IVec S200000x256 1 := cmpf .olt main_v14 main_v15
  fn_part1 (F := F) main_arg4 main_v13 main_v16
-- ==== Kernel.lean ====
abbrev S200000x256 : Shape := ⟨2, ![200000, 256]⟩
abbrev S8x64 : Shape := ⟨2, ![8, 64]⟩
abbrev S1x8 : Shape := ⟨2, ![1, 8]⟩
abbrev S2000x256 : Shape := ⟨2, ![2000, 256]⟩

abbrev nBuf : Space → Nat
  | .hbm => 7
  | .vmem => 10
  | .smem => 0
  | _ => 0

abbrev bufTy : (tb : Table) → Fin (tcTables nBuf tb) → BufTy
  | .hbm, ⟨0, _⟩ => ⟨S200000x256, .f32⟩
  | .hbm, ⟨1, _⟩ => ⟨S8x64, .f32⟩
  | .hbm, ⟨2, _⟩ => ⟨S1x8, .f32⟩
  | .hbm, ⟨3, _⟩ => ⟨S200000x256, .f32⟩
  | .hbm, ⟨4, _⟩ => ⟨S200000x256, .f32⟩
  | .hbm, ⟨5, _⟩ => ⟨S200000x256, .f32⟩
  | .hbm, ⟨6, _⟩ => ⟨S200000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S2000x256_S2000x256_0_0 : ∀ a, (![0, 0] : Fin 2 → Nat) a + S2000x256.size a ≤ S2000x256.size a
  h_S2000x256 : 0 < S2000x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S200000x256.size a
  hwx0_1 : ∀ i : grid0.Coords, EltTy.bits .f32 = 32 ∨ (Rect.block (s := S200000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S200000x256.size a
  hwx0_2 : ∀ i : grid0.Coords, EltTy.bits .f32 = 32 ∨ (Rect.block (s := S200000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S200000x256.size a
  hwx0_3 : ∀ i : grid0.Coords, EltTy.bits .f32 = 32 ∨ (Rect.block (s := S200000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S200000x256.size a
  hwx0_4 : ∀ i : grid0.Coords, EltTy.bits .f32 = 32 ∨ (Rect.block (s := S200000x256) S2000x256.size (cc0_transform_4 i) (hinb0_4 i)).WholeWords (EltTy.packing .f32)

variable [Facts₀]

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S200000x256 : Shape := ⟨2, ![200000, 256]⟩
abbrev S8x64 : Shape := ⟨2, ![8, 64]⟩
abbrev S1x8 : Shape := ⟨2, ![1, 8]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S200000x256, .f32⟩
  | .hbm, ⟨1, _⟩ => ⟨S8x64, .f32⟩
  | .hbm, ⟨2, _⟩ => ⟨S1x8, .f32⟩
  | .hbm, ⟨3, _⟩ => ⟨S200000x256, .f32⟩
  | .hbm, ⟨4, _⟩ => ⟨S200000x256, .f32⟩
  | .hbm, ⟨5, _⟩ => ⟨S200000x256, .f32⟩
  | .hbm, ⟨6, _⟩ => ⟨S200000x256, .f32⟩
  | .hbm, ⟨7, _⟩ => ⟨S200000x256, .f32⟩
  | .hbm, ⟨8, _⟩ => ⟨S_, .f32⟩
  | .hbm, ⟨9, _⟩ => ⟨S200000x256, .f32⟩
  | .hbm, ⟨10, _⟩ => ⟨S200000x256, .f32⟩
  | .hbm, ⟨11, _⟩ => ⟨S_, .f32⟩
  | .hbm, ⟨12, _⟩ => ⟨S200000x256, .f32⟩
  | .hbm, ⟨13, _⟩ => ⟨S200000x256, .f32⟩
  | .hbm, ⟨14, _⟩ => ⟨S200000x256, .f32⟩
  | .hbm, ⟨15, _⟩ => ⟨S200000x256, .f32⟩
  | .hbm, ⟨16, _⟩ => ⟨S_, .f32⟩
  | .hbm, ⟨17, _⟩ => ⟨S200000x256, .f32⟩
  | .hbm, ⟨18, _⟩ => ⟨S200000x256, .f32⟩
  | .hbm, ⟨19, _⟩ => ⟨S_, .f32⟩
  | .hbm, ⟨20, _⟩ => ⟨S200000x256, .f32⟩
  | .hbm, ⟨21, _⟩ => ⟨S200000x256, .f32⟩
  | .hbm, ⟨22, _⟩ => ⟨S200000x256, .f32⟩
  | .hbm, ⟨23, _⟩ => ⟨S200000x256, .f32⟩
  | .hbm, ⟨24, _⟩ => ⟨S200000x256, .f32⟩
  | .hbm, ⟨25, _⟩ => ⟨S200000x256, .f32⟩
  | .hbm, ⟨26, _⟩ => ⟨S200000x256, .f32⟩
  | .hbm, ⟨27, _⟩ => ⟨S200000x256, .f32⟩
  | .hbm, ⟨28, _⟩ => ⟨S_, .f32⟩
  | .hbm, ⟨29, _⟩ => ⟨S200000x256, .f32⟩
  | .hbm, ⟨30, _⟩ => ⟨S200000x256, .f32⟩
  | .hbm, ⟨31, _⟩ => ⟨S_, .f32⟩
  | .hbm, ⟨32, _⟩ => ⟨S200000x256, .f32⟩
  | .hbm, ⟨33, _⟩ => ⟨S200000x256, .f32⟩
  | .hbm, ⟨34, _⟩ => ⟨S200000x256, .f32⟩
  | .hbm, ⟨35, _⟩ => ⟨S200000x256, .f32⟩
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S200000x256 : S_.BroadcastsInDim S200000x256 (![] : Fin 0 → Fin S200000x256.rank)

variable [Facts₀]

class Facts : Prop extends Facts₀ where

variable [Facts]
-- ==== Proof.LibLogisticGate.lean ====
/-
  The logistic gate on the extended reals.

  At the exact instance a float is an extended real and the logistic function is
  `logistic s = 1 / (1 + e^(-s))`, with `logistic ⊥ = 0` and `logistic ⊤ = 1`. Whatever `s` is — a
  real number or an infinity — its value lies in the interval `[0, 1]`: it is nonnegative and it is
  never `⊤`. Multiplication by such a factor distributes over EVERY sum of extended reals, the sums
  that meet an infinity included: `σ * (a + b) = σ * a + σ * b`. So a cell that gates a sum,
  `σ * (c + t)`, and a cell that gates the two summands with the same gate and then adds,
  `σ * c + σ * t`, hold the same extended real, with no finiteness assumed of `c`, `t` or `s`.

  The module also reads the expansion `1 / (1 + exp (-s))` written with the f32 word of the number
  one (`0x3F800000`) as that same logistic function, vector by vector: a program that spells the
  gate by negate, exponential, add and divide computes `logistic` at every index.

  Nothing here mentions a particular program: the shapes and the arrays are arbitrary.
-/
import Mathlib.Data.EReal.Operations
import Idealize.ShloMosaic.PureOps.Ideal
import Idealize.ShloMosaic.Lib.IdealHost

noncomputable section

namespace LogisticGate

open Idealize.ShloMosaic

/-- The logistic of an extended real is nonnegative: `0` at `⊥`, `1` at `⊤`, and the inverse of the
    positive real `1 + e^(-r)` at a real `r`. -/
theorem logistic_nonneg (s : EReal) : 0 ≤ Ideal.logistic s := by
  induction s using EReal.rec with
  | bot => rw [Ideal.logistic_bot]
  | coe r =>
    rw [Ideal.logistic_coe]
    have h : (0 : ℝ) ≤ (1 + Real.exp (-r))⁻¹ := (inv_pos.2 (by positivity)).le
    exact_mod_cast h
  | top => rw [Ideal.logistic_top]; exact zero_le_one

/-- The logistic of an extended real is never `⊤`: its values are `0`, `1` and real numbers. -/
theorem logistic_ne_top (s : EReal) : Ideal.logistic s ≠ ⊤ := by
  induction s using EReal.rec with
  | bot => rw [Ideal.logistic_bot]; exact EReal.zero_ne_top
  | coe r => rw [Ideal.logistic_coe]; exact EReal.coe_ne_top _
  | top => rw [Ideal.logistic_top, ← EReal.coe_one]; exact EReal.coe_ne_top _

/-- A logistic gate distributes over a sum of extended reals, infinities included: the factor is
    nonnegative and not `⊤`, which is all that distributivity on the extended reals asks of it. -/
theorem logistic_mul_add (s a b : EReal) :
    Ideal.logistic s * (a + b) = Ideal.logistic s * a + Ideal.logistic s * b :=
  EReal.left_distrib_of_nonneg_of_ne_top (logistic_nonneg s) (logistic_ne_top s) a b

/-- The expansion `1 / (1 + exp (-s))`, both ones the f32 word `0x3F800000`, is the logistic of `s`:
    the word is the number one, and the quotient is the definition of the logistic function. -/
theorem one_div_one_add_exp_neg (s : EReal) :
    Ideal.div (Ideal.ofBits .f32 0x3F800000#32) (Ideal.ofBits .f32 0x3F800000#32 + Ideal.exp (-s))
      = Ideal.logistic s := by
  rw [Ideal.ofBits_one_f32]; rfl

end LogisticGate

end
-- ==== Proof.CellValue.lean ====
/-
  The reference's two results are the kernel's two functions.

  Write `s = x + h` and `σ = logistic s`. The kernel's block body computes, index by index,
  `c' = σ * (c + tanh s)` and `h' = σ * tanh c'`; its value leg gives these as the whole-array
  functions `G4` (the new cell state) and `G3` (the new hidden state) of the three argument arrays.
  The reference spells the gate three times over as `1 / (1 + exp (-s))` and computes
  `c' = σ * c + σ * tanh s` and `h' = σ * tanh c'`.

  Two facts join the sides. The expansion `1 / (1 + exp (-s))` IS the logistic function on the
  extended reals (so the reference's three gates are one function, the kernel's). And a logistic
  gate lies in `[0, 1]`, so it distributes over the sum `c + tanh s` whatever extended reals `c` and
  `s` are: no finiteness of the inputs is used. The hidden state then agrees because it is the same
  function of the cell state on both sides.
-/
import proofs.«104065_j1460288881436_1_alg».proof.Proof.Gen.KernelIdeal.Value
import proofs.«104065_j1460288881436_1_alg».proof.Proof.Gen.ReferenceIdeal.Run
import proofs.«104065_j1460288881436_1_alg».proof.Proof.LibLogisticGate

noncomputable section

open Idealize.ShloMosaic Idealize.ShloMosaic.TcCoe Idealize.SL.Sem

namespace Cert.ReferenceIdeal.CellValue

open Cert.ReferenceIdeal Cert.ReferenceIdeal.Gen Cert.ReferenceIdeal.Value

/-- The reference's spelling of the gate of a pre-activation array `s`: one over one plus the
    exponential of minus `s`, the ones broadcast from the scalar word of the number one. -/
abbrev gate (s : FVec Ideal S200000x256 .f32) : FVec Ideal S200000x256 .f32 :=
  Host.divf (broadcastInDim S200000x256 ![] bcast_S_S200000x256 (constant S_ .f32 0x3F800000#32))
    (addf (broadcastInDim S200000x256 ![] bcast_S_S200000x256 (constant S_ .f32 0x3F800000#32))
      (Host.exp (Host.negf s)))

/-- At every index that spelling is the logistic of the pre-activation there. -/
theorem gate_apply (s : FVec Ideal S200000x256 .f32) (i : S200000x256.Idx) :
    gate s i = Ideal.logistic (s i) := by
  simp only [gate, Host.divf, Host.exp, Host.negf, addf, broadcastInDim, constant, Ideal.hostDivf_def,
    Ideal.hostUnary_exp_def, Ideal.hostNegf_def, Ideal.negf_def, Ideal.addf_def, Ideal.ofBits_def]
  exact LogisticGate.one_div_one_add_exp_neg (s i)

/-- The reference's new cell state, `σ * c + σ * tanh s`, is the kernel's `σ * (c + tanh s)`: the gate
    distributes over the sum. -/
theorem cell_eq (x h c : FVec Ideal S200000x256 .f32) :
    addf (mulf (gate (addf x h)) c) (mulf (gate (addf x h)) (Host.tanh (addf x h)))
      = Cert.KernelIdeal.Value.G4 (F := Ideal) x h c := by
  funext i
  show gate (addf x h) i * c i + gate (addf x h) i * Ideal.tanh (x i + h i)
    = Ideal.logistic (x i + h i) * (c i + Ideal.tanh (x i + h i))
  rw [gate_apply]
  exact (LogisticGate.logistic_mul_add (x i + h i) (c i) (Ideal.tanh (x i + h i))).symm

/-- The reference's new hidden state, `σ * tanh c'` of its cell state `c'`, is the kernel's: the same
    function of a cell state that `cell_eq` has made the same. -/
theorem hidden_eq (x h c : FVec Ideal S200000x256 .f32) :
    mulf (gate (addf x h))
        (Host.tanh (addf (mulf (gate (addf x h)) c) (mulf (gate (addf x h)) (Host.tanh (addf x h)))))
      = Cert.KernelIdeal.Value.G3 (F := Ideal) x h c := by
  funext i
  show gate (addf x h) i
      * Ideal.tanh (gate (addf x h) i * c i + gate (addf x h) i * Ideal.tanh (x i + h i))
    = Ideal.logistic (x i + h i)
      * Ideal.tanh (Ideal.logistic (x i + h i) * (c i + Ideal.tanh (x i + h i)))
  rw [gate_apply]
  show Ideal.logistic (x i + h i)
      * Ideal.tanh (Ideal.logistic (x i + h i) * c i + Ideal.logistic (x i + h i) * Ideal.tanh (x i + h i))
    = _
  rw [← LogisticGate.logistic_mul_add (x i + h i) (c i) (Ideal.tanh (x i + h i))]

end Cert.ReferenceIdeal.CellValue

end
-- ==== Proof.lean ====
/-
  The recurrent cell, kernel against reference, on the extended reals.

  With `s = X + H` and the gate `σ = logistic s`, both programs compute the new cell state
  `C' = σ * C + σ * tanh s` and the new hidden state `H' = σ * tanh C'`, each over f32[200000, 256];
  the inputs `edge_attr` and `global_attr` are read by neither. The kernel runs over 100 blocks of
  2000 rows and forms `C'` as `σ * (C + tanh s)`; the reference forms it as the sum of the two gated
  terms and spells each gate as `1 / (1 + exp (-s))`.

  What each program leaves in its result arrays is generated: the kernel's two arrays as whole-array
  functions of the arguments (its value leg), the reference's as the composed term of its host
  operations (its run). Written by hand is that these are the same functions (Proof/CellValue.lean),
  from two facts about the logistic function on the extended reals (Proof/LibLogisticGate.lean): the
  expansion `1 / (1 + exp (-s))` is `logistic s`, and a factor in `[0, 1]` distributes over every sum,
  so the equality holds for all extended-real inputs and the finiteness precondition is never opened.
  The three frames are the generated runs; the idealization rewrote no operation, so `preserves` is `True`.
-/
import proofs.«104065_j1460288881436_1_alg».proof.Defs
import proofs.«104065_j1460288881436_1_alg».proof.Proof.Gen.Kernel
import proofs.«104065_j1460288881436_1_alg».proof.Proof.Gen.Kernel.Skeleton
import proofs.«104065_j1460288881436_1_alg».proof.Proof.Gen.Kernel.Launch
import proofs.«104065_j1460288881436_1_alg».proof.Proof.Gen.Kernel.Points
import proofs.«104065_j1460288881436_1_alg».proof.Proof.Gen.Kernel.Frame
import proofs.«104065_j1460288881436_1_alg».proof.Proof.Gen.KernelIdeal
import proofs.«104065_j1460288881436_1_alg».proof.Proof.Gen.KernelIdeal.Skeleton
import proofs.«104065_j1460288881436_1_alg».proof.Proof.Gen.KernelIdeal.Launch
import proofs.«104065_j1460288881436_1_alg».proof.Proof.Gen.KernelIdeal.Points
import proofs.«104065_j1460288881436_1_alg».proof.Proof.Gen.KernelIdeal.Frame
import proofs.«104065_j1460288881436_1_alg».proof.Proof.Gen.ReferenceIdeal
import proofs.«104065_j1460288881436_1_alg».proof.Proof.Gen.Pre_finite_inputs
import proofs.«104065_j1460288881436_1_alg».proof.Proof.Gen.KernelIdeal.Value
import proofs.«104065_j1460288881436_1_alg».proof.Proof.Gen.ReferenceIdeal.Run
import proofs.«104065_j1460288881436_1_alg».proof.Proof.CellValue
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run ends with its two results at their terms and the arguments unchanged; the
    frame keeps the second half. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- No operation was rewritten when the kernel was idealized: there is nothing to preserve. -/
theorem preserves : Cert.preserves_Kernel_KernelIdeal := trivial

/-- From memories that agree on the arguments the kernel's hidden and cell arrays end at `G3` and `G4`
    of `X`, `H`, `C`, and the reference's two results end at terms that are those same functions:
    the gate's expansion is the logistic function, and the gate distributes over `C + tanh (X + H)`. -/
theorem algebraic : Cert.algebraic_KernelIdeal_ReferenceIdeal := by
  intro m ρ m' ρ' _ hagree
  refine ⟨_, _, Cert.KernelIdeal.Value.run (F := Ideal) m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [(hagree c).1, (hagree c).2.2.2.1, (hagree c).2.2.2.2]
    exact Cert.ReferenceIdeal.CellValue.hidden_eq _ _ _
  · rw [(hagree c).1, (hagree c).2.2.2.1, (hagree c).2.2.2.2]
    exact Cert.ReferenceIdeal.CellValue.cell_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
